-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16x1x84x84 : Shape := ⟨5, ![64, 16, 1, 84, 84]⟩
abbrev S1024x98 : Shape := ⟨2, ![1024, 98]⟩
abbrev S1024 : Shape := ⟨1, ![1024]⟩
abbrev S1x1152x1024 : Shape := ⟨3, ![1, 1152, 1024]⟩
abbrev S_ : Shape := ⟨0, ![]⟩

class Facts : Prop where
  bcast_S_S64x16x1x84x84 : S_.BroadcastsInDim S64x16x1x84x84 (![] : Fin 0 → Fin S64x16x1x84x84.rank)
  reducesTo_S64x16x1x84x84_S_d0_1_2_3_4 : S64x16x1x84x84.ReducesTo [0, 1, 2, 3, 4] S_
  h_S_ : 0 < S_.numel
  bcast_S_S1024x98 : S_.BroadcastsInDim S1024x98 (![] : Fin 0 → Fin S1024x98.rank)
  reducesTo_S1024x98_S_d0_1 : S1024x98.ReducesTo [0, 1] S_
  bcast_S_S1024 : S_.BroadcastsInDim S1024 (![] : Fin 0 → Fin S1024.rank)
  reducesTo_S1024_S_d0 : S1024.ReducesTo [0] S_
  bcast_S_S1x1152x1024 : S_.BroadcastsInDim S1x1152x1024 (![] : Fin 0 → Fin S1x1152x1024.rank)
  reducesTo_S1x1152x1024_S_d0_1_2 : S1x1152x1024.ReducesTo [0, 1, 2] S_

variable [Facts]

def fn_part1 {F : FTy → Type} [FloatOps F] (main_v13 : IVec S_ 1) (main_v16 : IVec S1x1152x1024 1) : IVec S_ 1 :=
  let main_c_5 : IVec S_ 1 := constantI S_ 1 1#1
  let main_v17 : IVec S_ 1 := (fun x v => Host.reduce IntOp.andi x v reducesTo_S1x1152x1024_S_d0_1_2 h_S_) main_v16 main_c_5
  let main_v18 : IVec S_ 1 := andi main_v13 main_v17
  main_v18

def fn {F : FTy → Type} [FloatOps F] (main_arg0 : FVec F S64x16x1x84x84 .f32) (main_arg1 : FVec F S1024x98 .f32) (main_arg2 : FVec F S1024 .f32) (main_arg3 : FVec F S1x1152x1024 .f32) : IVec S_ 1 :=
  let main_v0 : FVec F S64x16x1x84x84 .f32 := Host.absf main_arg0
  let main_cst : FVec F S_ .f32 := constant S_ .f32 0x7F800000#32
  let main_v1 : FVec F S64x16x1x84x84 .f32 := broadcastInDim S64x16x1x84x84 ![] bcast_S_S64x16x1x84x84 main_cst
  let main_v2 : IVec S64x16x1x84x84 1 := cmpf .olt main_v0 main_v1
  let main_c : IVec S_ 1 := constantI S_ 1 1#1
  let main_v3 : IVec S_ 1 := (fun x v => Host.reduce IntOp.andi x v reducesTo_S64x16x1x84x84_S_d0_1_2_3_4 h_S_) main_v2 main_c
  let main_v4 : FVec F S1024x98 .f32 := Host.absf main_arg1
  let main_cst_0 : FVec F S_ .f32 := constant S_ .f32 0x7F800000#32
  let main_v5 : FVec F S1024x98 .f32 := broadcastInDim S1024x98 ![] bcast_S_S1024x98 main_cst_0
  let main_v6 : IVec S1024x98 1 := cmpf .olt main_v4 main_v5
  let main_c_1 : IVec S_ 1 := constantI S_ 1 1#1
  let main_v7 : IVec S_ 1 := (fun x v => Host.reduce IntOp.andi x v reducesTo_S1024x98_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1x1152x1024 .f32 := Host.absf main_arg3
  let main_cst_4 : FVec F S_ .f32 := constant S_ .f32 0x7F800000#32
  let main_v15 : FVec F S1x1152x1024 .f32 := broadcastInDim S1x1152x1024 ![] bcast_S_S1x1152x1024 main_cst_4
  let main_v16 : IVec S1x1152x1024 1 := cmpf .olt main_v14 main_v15
  fn_part1 (F := F) main_v13 main_v16
-- ==== Kernel.lean ====
abbrev S64x16x1x84x84 : Shape := ⟨5, ![64, 16, 1, 84, 84]⟩
abbrev S1024x98 : Shape := ⟨2, ![1024, 98]⟩
abbrev S1024 : Shape := ⟨1, ![1024]⟩
abbrev S1x1152x1024 : Shape := ⟨3, ![1, 1152, 1024]⟩
abbrev S1024x1x12x7x12x7 : Shape := ⟨6, ![1024, 1, 12, 7, 12, 7]⟩
abbrev S1024x12x12x1x7x7 : Shape := ⟨6, ![1024, 12, 12, 1, 7, 7]⟩
abbrev S64x16x144x49 : Shape := ⟨4, ![64, 16, 144, 49]⟩
abbrev S64x8x2x144x49 : Shape := ⟨5, ![64, 8, 2, 144, 49]⟩
abbrev S64x8x144x2x49 : Shape := ⟨5, ![64, 8, 144, 2, 49]⟩
abbrev S64x1152x98 : Shape := ⟨3, ![64, 1152, 98]⟩
abbrev S64x1152x1024 : Shape := ⟨3, ![64, 1152, 1024]⟩
abbrev S16x128x98 : Shape := ⟨3, ![16, 128, 98]⟩
abbrev S1x128x1024 : Shape := ⟨3, ![1, 128, 1024]⟩
abbrev S16x128x1024 : Shape := ⟨3, ![16, 128, 1024]⟩
abbrev S2048x98 : Shape := ⟨2, ![2048, 98]⟩
abbrev S2048x1024 : Shape := ⟨2, ![2048, 1024]⟩
abbrev S1x1x1024 : Shape := ⟨3, ![1, 1, 1024]⟩

abbrev nBuf : Space → Nat
  | .hbm => 11
  | .vmem => 8
  | .smem => 0
  | _ => 0

abbrev bufTy : (tb : Table) → Fin (tcTables nBuf tb) → BufTy
  | .hbm, ⟨0, _⟩ => ⟨S64x16x1x84x84, .f32⟩
  | .hbm, ⟨1, _⟩ => ⟨S1024x98, .f32⟩
  | .hbm, ⟨2, _⟩ => ⟨S1024, .f32⟩
  | .hbm, ⟨3, _⟩ => ⟨S1x1152x1024, .f32⟩
  | .hbm, ⟨4, _⟩ => ⟨S1024x1x12x7x12x7, .f32⟩
  | .hbm, ⟨5, _⟩ => ⟨S1024x12x12x1x7x7, .f32⟩
  | .hbm, ⟨6, _⟩ => ⟨S64x16x144x49, .f32⟩
  | .hbm, ⟨7, _⟩ => ⟨S64x8x2x144x49, .f32⟩
  | .hbm, ⟨8, _⟩ => ⟨S64x8x144x2x49, .f32⟩
  | .hbm, ⟨9, _⟩ => ⟨S64x1152x98, .f32⟩
  | .hbm, ⟨10, _⟩ => ⟨S64x1152x1024, .f32⟩
  | .local _ .vmem, ⟨0, _⟩ => ⟨S16x128x98, .f32⟩
  | .local _ .vmem, ⟨1, _⟩ => ⟨S16x128x98, .f32⟩
  | .local _ .vmem, ⟨2, _⟩ => ⟨S1024x98, .f32⟩
  | .local _ .vmem, ⟨3, _⟩ => ⟨S1024, .f32⟩
  | .local _ .vmem, ⟨4, _⟩ => ⟨S1x128x1024, .f32⟩
  | .local _ .vmem, ⟨5, _⟩ => ⟨S1x128x1024, .f32⟩
  | .local _ .vmem, ⟨6, _⟩ => ⟨S16x128x1024, .f32⟩
  | .local _ .vmem, ⟨7, _⟩ => ⟨S16x128x1024, .f32⟩
  | _, _ => ⟨S64x16x1x84x84, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![9, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S16x128x98 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x98 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S64x16x1x84x84_S1024x1x12x7x12x7 : S64x16x1x84x84.ShapeCasts S1024x1x12x7x12x7
  transposes_S1024x1x12x7x12x7_S1024x12x12x1x7x7_0_2_4_1_3_5 : S1024x1x12x7x12x7.Transposes [0, 2, 4, 1, 3, 5] S1024x12x12x1x7x7
  shapeCasts_S1024x12x12x1x7x7_S64x16x144x49 : S1024x12x12x1x7x7.ShapeCasts S64x16x144x49
  shapeCasts_S64x16x144x49_S64x8x2x144x49 : S64x16x144x49.ShapeCasts S64x8x2x144x49
  transposes_S64x8x2x144x49_S64x8x144x2x49_0_1_3_2_4 : S64x8x2x144x49.Transposes [0, 1, 3, 2, 4] S64x8x144x2x49
  shapeCasts_S64x8x144x2x49_S64x1152x98 : S64x8x144x2x49.ShapeCasts S64x1152x98
  inb_S16x128x98_S16x128x98_0_0_0 : ∀ a, (![0, 0, 0] : Fin 3 → Nat) a + S16x128x98.size a ≤ S16x128x98.size a
  h_S16x128x98 : 0 < S16x128x98.numel
  shapeCasts_S16x128x98_S16x128x98 : S16x128x98.ShapeCasts S16x128x98
  bitsLt_bf16_f32 : FTy.bits .bf16 < FTy.bits .f32
  shapeCasts_S16x128x98_S2048x98 : S16x128x98.ShapeCasts S2048x98
  inb_S1024x98_S1024x98_0_0 : ∀ a, (![0, 0] : Fin 2 → Nat) a + S1024x98.size a ≤ S1024x98.size a
  h_S1024x98 : 0 < S1024x98.numel
  shapeCasts_S2048x1024_S16x128x1024 : S2048x1024.ShapeCasts S16x128x1024
  inb_S1024_S1024_0 : ∀ a, (![0] : Fin 1 → Nat) a + S1024.size a ≤ S1024.size a
  h_S1024 : 0 < S1024.numel
  shapeCasts_S1024_S1x1x1024 : S1024.ShapeCasts S1x1x1024
  broadcasts_S1x1x1024_S16x128x1024 : S1x1x1024.Broadcasts S16x128x1024
  inb_S1x128x1024_S1x128x1024_0_0_0 : ∀ a, (![0, 0, 0] : Fin 3 → Nat) a + S1x128x1024.size a ≤ S1x128x1024.size a
  h_S1x128x1024 : 0 < S1x128x1024.numel
  broadcasts_S1x128x1024_S16x128x1024 : S1x128x1024.Broadcasts S16x128x1024
  inb_S16x128x1024_S16x128x1024_0_0_0 : ∀ a, (![0, 0, 0] : Fin 3 → Nat) a + S16x128x1024.size a ≤ S16x128x1024.size a
  h_S16x128x1024 : 0 < S16x128x1024.numel
  dot_S2048x98_S1024x98_S2048x1024_1_1_0_0_n_n_wf : DotDims.WF S2048x98 S1024x98 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x98.size a ≤ S64x1152x98.size a
  hwx0_0 : ∀ i : grid0.Coords, EltTy.bits .f32 = 32 ∨ (Rect.block (s := S64x1152x98) S16x128x98.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x98.size a ≤ S1024x98.size a
  hwx0_1 : ∀ i : grid0.Coords, EltTy.bits .f32 = 32 ∨ (Rect.block (s := S1024x98) S1024x98.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1024.size a ≤ S1x1152x1024.size a
  hwx0_3 : ∀ i : grid0.Coords, EltTy.bits .f32 = 32 ∨ (Rect.block (s := S1x1152x1024) S1x128x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x128x1024.size a ≤ S64x1152x1024.size a
  hwx0_4 : ∀ i : grid0.Coords, EltTy.bits .f32 = 32 ∨ (Rect.block (s := S64x1152x1024) S16x128x1024.size (cc0_transform_4 i) (hinb0_4 i)).WholeWords (EltTy.packing .f32)

variable [Facts₀]

def dot_S2048x98_S1024x98_S2048x1024_1_1_0_0_n_n : DotDims S2048x98 S1024x98 S2048x1024 where
  lhsContracting := [1]
  rhsContracting := [1]
  lhsNonContracting := [0]
  rhsNonContracting := [0]
  lhsBatch := []
  rhsBatch := []
  wf := dot_S2048x98_S1024x98_S2048x1024_1_1_0_0_n_n_wf

abbrev win0_0 : Pipeline.Window sig grid0 :=
  Pipeline.Window.ofSpec (Memref.whole main_v5) S16x128x98.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x98.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S16x128x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x16x1x84x84 : Shape := ⟨5, ![64, 16, 1, 84, 84]⟩
abbrev S1024x98 : Shape := ⟨2, ![1024, 98]⟩
abbrev S1024 : Shape := ⟨1, ![1024]⟩
abbrev S1x1152x1024 : Shape := ⟨3, ![1, 1152, 1024]⟩
abbrev S1024x1x12x7x12x7 : Shape := ⟨6, ![1024, 1, 12, 7, 12, 7]⟩
abbrev S1024x12x12x1x7x7 : Shape := ⟨6, ![1024, 12, 12, 1, 7, 7]⟩
abbrev S64x16x144x49 : Shape := ⟨4, ![64, 16, 144, 49]⟩
abbrev S64x8x2x144x49 : Shape := ⟨5, ![64, 8, 2, 144, 49]⟩
abbrev S64x8x144x2x49 : Shape := ⟨5, ![64, 8, 144, 2, 49]⟩
abbrev S64x1152x98 : Shape := ⟨3, ![64, 1152, 98]⟩
abbrev S64x1152x1024 : Shape := ⟨3, ![64, 1152, 1024]⟩
abbrev S1x1x1024 : Shape := ⟨3, ![1, 1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S64x16x1x84x84, .f32⟩
  | .hbm, ⟨1, _⟩ => ⟨S1024x98, .f32⟩
  | .hbm, ⟨2, _⟩ => ⟨S1024, .f32⟩
  | .hbm, ⟨3, _⟩ => ⟨S1x1152x1024, .f32⟩
  | .hbm, ⟨4, _⟩ => ⟨S1024x1x12x7x12x7, .f32⟩
  | .hbm, ⟨5, _⟩ => ⟨S1024x12x12x1x7x7, .f32⟩
  | .hbm, ⟨6, _⟩ => ⟨S64x16x144x49, .f32⟩
  | .hbm, ⟨7, _⟩ => ⟨S64x8x2x144x49, .f32⟩
  | .hbm, ⟨8, _⟩ => ⟨S64x8x144x2x49, .f32⟩
  | .hbm, ⟨9, _⟩ => ⟨S64x1152x98, .f32⟩
  | .hbm, ⟨10, _⟩ => ⟨S64x1152x1024, .f32⟩
  | .hbm, ⟨11, _⟩ => ⟨S1x1x1024, .f32⟩
  | .hbm, ⟨12, _⟩ => ⟨S64x1152x1024, .f32⟩
  | .hbm, ⟨13, _⟩ => ⟨S64x1152x1024, .f32⟩
  | .hbm, ⟨14, _⟩ => ⟨S64x1152x1024, .f32⟩
  | .hbm, ⟨15, _⟩ => ⟨S64x1152x1024, .f32⟩
  | _, _ => ⟨S64x16x1x84x84, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  shapeCasts_S64x16x1x84x84_S1024x1x12x7x12x7 : S64x16x1x84x84.ShapeCasts S1024x1x12x7x12x7
  transposes_S1024x1x12x7x12x7_S1024x12x12x1x7x7_0_2_4_1_3_5 : S1024x1x12x7x12x7.Transposes [0, 2, 4, 1, 3, 5] S1024x12x12x1x7x7
  shapeCasts_S1024x12x12x1x7x7_S64x16x144x49 : S1024x12x12x1x7x7.ShapeCasts S64x16x144x49
  shapeCasts_S64x16x144x49_S64x8x2x144x49 : S64x16x144x49.ShapeCasts S64x8x2x144x49
  transposes_S64x8x2x144x49_S64x8x144x2x49_0_1_3_2_4 : S64x8x2x144x49.Transposes [0, 1, 3, 2, 4] S64x8x144x2x49
  shapeCasts_S64x8x144x2x49_S64x1152x98 : S64x8x144x2x49.ShapeCasts S64x1152x98
  bcast_S1024_S1x1x1024_2 : S1024.BroadcastsInDim S1x1x1024 (![2] : Fin 1 → Fin S1x1x1024.rank)
  bcast_S1x1x1024_S64x1152x1024_0_1_2 : S1x1x1024.BroadcastsInDim S64x1152x1024 (![0, 1, 2] : Fin 3 → Fin S64x1152x1024.rank)
  bcast_S1x1152x1024_S64x1152x1024_0_1_2 : S1x1152x1024.BroadcastsInDim S64x1152x1024 (![0, 1, 2] : Fin 3 → Fin S64x1152x1024.rank)
  dot_S64x1152x98_S1024x98_S64x1152x1024_2_1_01_0_n_n_wf : DotDims.WF S64x1152x98 S1024x98 S64x1152x1024 [2] [1] [0, 1] [0] [] []

variable [Facts₀]

def dot_S64x1152x98_S1024x98_S64x1152x1024_2_1_01_0_n_n : DotDims S64x1152x98 S1024x98 S64x1152x1024 where
  lhsContracting := [2]
  rhsContracting := [1]
  lhsNonContracting := [0, 1]
  rhsNonContracting := [0]
  lhsBatch := []
  rhsBatch := []
  wf := dot_S64x1152x98_S1024x98_S64x1152x1024_2_1_01_0_n_n_wf

class Facts : Prop extends Facts₀ where

variable [Facts]
-- ==== Proof.Spec.lean ====
/-
  The token embedding of a batch of tubelets, as one function of the arrays, index by index.

  A video clip is cut into tubelets (two frames deep, 7 × 7 pixels: 98 numbers each), 1152 per sample. Every tubelet is
  sent to a 1024-vector by a linear map, and a bias and a positional term are added:

      token[s, n, e] = (∑ k < 98, tubelet[s, n, k] · W[e, k]) + bias[e] + pos[0, n, e].

  The positional term depends on the tubelet's place `n` in its sample and not on the sample `s`; the bias on neither.
  The two additions are grouped from the left, as both programs group them.
-/
import Idealize.ShloMosaic.PureOps.Ideal
import Idealize.ShloMosaic.Lib.ValueIdx

noncomputable section

namespace Cert.TubeletEmbed

open Idealize.ShloMosaic Idealize.ShloMosaic.ValueIdx
open scoped BigOperators

/-- One entry of the embedding: sample `s`, tubelet `n`, feature `e`. -/
def tokenAt (x : (⟨3, ![64, 1152, 98]⟩ : Shape).Idx → EReal) (w : (⟨2, ![1024, 98]⟩ : Shape).Idx → EReal)
    (b : (⟨1, ![1024]⟩ : Shape).Idx → EReal) (p : (⟨3, ![1, 1152, 1024]⟩ : Shape).Idx → EReal)
    (s : Fin 64) (n : Fin 1152) (e : Fin 1024) : EReal :=
  (∑ k : Fin 98, x (ix3 s n k) * w (ix2 e k)) + b (ix1 e) + p (ix3 (0 : Fin 1) n e)

/-- The whole array of tokens. -/
def tokens (x : (⟨3, ![64, 1152, 98]⟩ : Shape).Idx → EReal) (w : (⟨2, ![1024, 98]⟩ : Shape).Idx → EReal)
    (b : (⟨1, ![1024]⟩ : Shape).Idx → EReal) (p : (⟨3, ![1, 1152, 1024]⟩ : Shape).Idx → EReal) :
    (⟨3, ![64, 1152, 1024]⟩ : Shape).Idx → EReal :=
  fun i => tokenAt x w b p (i 0) (i 1) (i 2)

theorem tokens_apply (x : (⟨3, ![64, 1152, 98]⟩ : Shape).Idx → EReal) (w : (⟨2, ![1024, 98]⟩ : Shape).Idx → EReal)
    (b : (⟨1, ![1024]⟩ : Shape).Idx → EReal) (p : (⟨3, ![1, 1152, 1024]⟩ : Shape).Idx → EReal)
    (s : Fin 64) (n : Fin 1152) (e : Fin 1024) :
    tokens x w b p (ix3 s n e) = tokenAt x w b p s n e := rfl

end Cert.TubeletEmbed

end
-- ==== Proof.RefValue.lean ====
/-
  The reference, read index by index, is the token embedding of its own tubelet array.

  The reference first re-lays the video into tubelets (six reshapes and transposes: `val_main_v5`), then contracts the
  tubelets' last axis with the last axis of `W` (a `dot_general`, at the ideal values the plain sum of products), adds
  the bias broadcast along the first two axes and the positional term broadcast along the first. Entry `(s, n, e)` of
  the result therefore reads tubelet `(s, n, ·)`, row `e` of `W`, `bias[e]` and `pos[0, n, e]`: it is `tokens`. The
  tubelet array itself is not opened here: the kernel's program re-lays the video by the same six operations.
-/
import proofs.«181211_j87771951661498_2_alg».proof.Proof.Gen.ReferenceIdeal.Read
import proofs.«181211_j87771951661498_2_alg».proof.Proof.Spec

noncomputable section

namespace Cert.ReferenceIdeal.RefValue

open Cert.ReferenceIdeal Cert.ReferenceIdeal.Read Idealize.ShloMosaic Idealize.ShloMosaic.ValueIdx Cert.TubeletEmbed
open scoped BigOperators

/-- The reference's last stage is the token embedding of the tubelets it formed, the weights, the bias and the
    positional array. -/
theorem result_eq (x0 : (⟨S64x16x1x84x84, .f32⟩ : BufTy).Contents (Elt Ideal)) (x1 : (⟨S1024x98, .f32⟩ : BufTy).Contents (Elt Ideal))
    (x2 : (⟨S1024, .f32⟩ : BufTy).Contents (Elt Ideal)) (x3 : (⟨S1x1152x1024, .f32⟩ : BufTy).Contents (Elt Ideal)) :
    val_main_v11 (F := Ideal) x0 x1 x2 x3 = tokens (val_main_v5 (F := Ideal) x0) x1 x2 x3 := by
  funext i
  rw [val_main_v11_apply, val_main_v9_apply, val_main_v6_apply, val_main_v8_apply, val_main_v7_apply, val_main_v10_apply]
  -- the operands' indices at output index `i` and contraction index `k`, as coordinates
  have el : ∀ k : Fin 98, lidx_main_v6 i k = ix3 (n0 := 64) (n1 := 1152) (n2 := 98) (i 0) (i 1) k := fun k => funext fun a => by
    match a with | ⟨0, _⟩ => rfl | ⟨1, _⟩ => rfl | ⟨2, _⟩ => rfl
  have er : ∀ k : Fin 98, ridx_main_v6 i k = ix2 (n0 := 1024) (n1 := 98) (i 2) k := fun k => funext fun a => by
    match a with | ⟨0, _⟩ => rfl | ⟨1, _⟩ => rfl
  have eb : idx_main_v7 (idx_main_v8 i) = ix1 (n := 1024) (i 2) := funext fun a => by
    match a with | ⟨0, _⟩ => rfl
  have ep : idx_main_v10 i = ix3 (n0 := 1) (n1 := 1152) (n2 := 1024) (0 : Fin 1) (i 1) (i 2) := funext fun a => by
    match a with | ⟨0, _⟩ => rfl | ⟨1, _⟩ => rfl | ⟨2, _⟩ => rfl
  simp only [el, er, eb, ep]
  rfl

end Cert.ReferenceIdeal.RefValue

end
-- ==== Proof.Payload.lean ====
/-
  What the kernel body computes from the blocks it loads, read at one entry.

  The body takes a block of 16 × 128 tubelets (98 numbers each), flattens it to 2048 rows, multiplies it with the
  whole weight matrix `W` (1024 × 98) along the tubelets' axis into a zero accumulator, folds the 2048 rows back into
  16 × 128, and adds the bias (broadcast over both leading axes) and the block of positional terms (broadcast over the
  first axis). The roundings to bf16 before the product are the identity at the ideal values. Entry `(a, r, e)` of the
  result is therefore

      (∑ k < 98, x[a, r, k] · W[e, k]) + bias[e] + pos[0, r, e]:

  row `a·128 + r` of the flattened block is tubelet `(a, r)`, and the same row of the product folds back to `(a, r)`.
-/
import proofs.«181211_j87771951661498_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx
open scoped BigOperators

/-- The row of the flattened block that tubelet `(a, r)` of the block becomes. -/
abbrev flatRow (a : Fin 16) (r : Fin 128) : Fin 2048 := ⟨a.val * 128 + r.val, by have := a.isLt; have := r.isLt; omega⟩

/-- Flattening the two leading axes: row `a·128 + r`, column `k` is entry `(a, r, k)`. -/
theorem flatten_apply {α : Type} (v : S16x128x98.Idx → α) (h : S16x128x98.ShapeCasts S2048x98) (a : Fin 16) (r : Fin 128) (k : Fin 98) :
    shapeCast S2048x98 v h (ix2 (flatRow a r) k) = v (ix3 a r k) :=
  shapeCast_apply v h (ix2 (flatRow a r) k) (ix3 a r k) (by
    rw [Shape.rowMajor_val_three, Shape.rowMajor_val_two]; rfl)

/-- Folding the rows back: entry `(a, r, e)` is row `a·128 + r`, column `e`. -/
theorem unflatten_apply {α : Type} (v : S2048x1024.Idx → α) (h : S2048x1024.ShapeCasts S16x128x1024) (a : Fin 16) (r : Fin 128) (e : Fin 1024) :
    shapeCast S16x128x1024 v h (ix3 a r e) = v (ix2 (flatRow a r) e) :=
  shapeCast_apply v h (ix3 a r e) (ix2 (flatRow a r) e) (by
    rw [Shape.rowMajor_val_two, Shape.rowMajor_val_three]; rfl)

/-- The bias viewed as a 1 × 1 × 1024 array. -/
theorem biasCast_apply {α : Type} (v : S1024.Idx → α) (h : S1024.ShapeCasts S1x1x1024) (e : Fin 1024) :
    shapeCast S1x1x1024 v h (ix3 (0 : Fin 1) (0 : Fin 1) e) = v (ix1 e) :=
  shapeCast_apply v h (ix3 (0 : Fin 1) (0 : Fin 1) e) (ix1 e) (by
    rw [Shape.rowMajor_val_one, Shape.rowMajor_val_three]
    show e.val = (0 * 1 + 0) * 1024 + e.val
    omega)

/-- The bias broadcast over both leading axes. -/
theorem biasBroadcast_apply {α : Type} (v : S1x1x1024.Idx → α) (h : S1x1x1024.Broadcasts S16x128x1024) (a : Fin 16) (r : Fin 128) (e : Fin 1024) :
    broadcastTo S16x128x1024 v h (ix3 a r e) = v (ix3 (0 : Fin 1) (0 : Fin 1) e) :=
  broadcastTo_apply v h (ix3 a r e) (ix3 (0 : Fin 1) (0 : Fin 1) e) (fun d => match d with
    | ⟨0, _⟩ => by show 0 = if (1 : Nat) = 1 then 0 else a.val; rw [if_pos rfl]
    | ⟨1, _⟩ => by show 0 = if (1 : Nat) = 1 then 0 else r.val; rw [if_pos rfl]
    | ⟨2, _⟩ => by show e.val = if (1024 : Nat) = 1 then 0 else e.val; rw [if_neg (by decide)])

/-- The positional block broadcast over the first axis. -/
theorem posBroadcast_apply {α : Type} (v : S1x128x1024.Idx → α) (h : S1x128x1024.Broadcasts S16x128x1024) (a : Fin 16) (r : Fin 128) (e : Fin 1024) :
    broadcastTo S16x128x1024 v h (ix3 a r e) = v (ix3 (0 : Fin 1) r e) :=
  broadcastTo_apply v h (ix3 a r e) (ix3 (0 : Fin 1) r e) (fun d => match d with
    | ⟨0, _⟩ => by show 0 = if (1 : Nat) = 1 then 0 else a.val; rw [if_pos rfl]
    | ⟨1, _⟩ => by show r.val = if (128 : Nat) = 1 then 0 else r.val; rw [if_neg (by decide)]
    | ⟨2, _⟩ => by show e.val = if (1024 : Nat) = 1 then 0 else e.val; rw [if_neg (by decide)])

/-- The left operand's row at output entry `i` is `i`'s row (the product's first axis is the left operand's free axis). -/
theorem lhs_row (i : S2048x1024.Idx) (q : dot_S2048x98_S1024x98_S2048x1024_1_1_0_0_n_n.contr.Idx) : (dot_S2048x98_S1024x98_S2048x1024_1_1_0_0_n_n.lhsIdx i q 0).val = (i 0).val := by
  unfold DotDims.lhsIdx
  rw [dif_neg (show ¬(0 : Fin S2048x98.rank) ∈ dot_S2048x98_S1024x98_S2048x1024_1_1_0_0_n_n.lhsBatch by decide),
    dif_pos (show (0 : Fin S2048x98.rank) ∈ dot_S2048x98_S1024x98_S2048x1024_1_1_0_0_n_n.lhsNonContracting by decide)]
  rfl

/-- The right operand's row at output entry `i` is `i`'s column (the product's second axis is the right operand's free axis). -/
theorem rhs_row (i : S2048x1024.Idx) (q : dot_S2048x98_S1024x98_S2048x1024_1_1_0_0_n_n.contr.Idx) : (dot_S2048x98_S1024x98_S2048x1024_1_1_0_0_n_n.rhsIdx i q 0).val = (i 1).val := by
  unfold DotDims.rhsIdx
  rw [dif_neg (show ¬(0 : Fin S1024x98.rank) ∈ dot_S2048x98_S1024x98_S2048x1024_1_1_0_0_n_n.rhsBatch by decide),
    dif_pos (show (0 : Fin S1024x98.rank) ∈ dot_S2048x98_S1024x98_S2048x1024_1_1_0_0_n_n.rhsNonContracting by decide)]
  rfl

/-- The product into a zero accumulator, at row `q` and column `e`: the sum over the contracted axis of the two
    operands' rows. Both operands are contracted along their second axis. -/
theorem product_apply (x : FVec Ideal S2048x98 .bf16) (w : FVec Ideal S1024x98 .bf16) (q : Fin 2048) (e : Fin 1024) :
    matmul dot_S2048x98_S1024x98_S2048x1024_1_1_0_0_n_n none x w (constant (F := Ideal) S2048x1024 .f32 0x00000000#32) (ix2 q e)
      = ∑ k : Fin 98, x (ix2 q k) * w (ix2 e k) := by
  simp only [matmul]
  rw [Ideal.matmul_constant_zero_apply, ← Equiv.sum_comp (contrEquiv1 dot_S2048x98_S1024x98_S2048x1024_1_1_0_0_n_n 98 rfl rfl).symm]
  refine Finset.sum_congr rfl fun k _ => ?_
  have hk := contrEquiv1_symm_val dot_S2048x98_S1024x98_S2048x1024_1_1_0_0_n_n 98 rfl rfl k
  have el : dot_S2048x98_S1024x98_S2048x1024_1_1_0_0_n_n.lhsIdx (ix2 q e) ((contrEquiv1 dot_S2048x98_S1024x98_S2048x1024_1_1_0_0_n_n 98 rfl rfl).symm k) = ix2 q k :=
    funext fun d => Fin.ext (by
      match d with
      | ⟨0, _⟩ => exact lhs_row _ _
      | ⟨1, _⟩ => exact (dot_S2048x98_S1024x98_S2048x1024_1_1_0_0_n_n.lhsIdx_val_of_single rfl _ _).trans hk)
  have er : dot_S2048x98_S1024x98_S2048x1024_1_1_0_0_n_n.rhsIdx (ix2 q e) ((contrEquiv1 dot_S2048x98_S1024x98_S2048x1024_1_1_0_0_n_n 98 rfl rfl).symm k) = ix2 e k :=
    funext fun d => Fin.ext (by
      match d with
      | ⟨0, _⟩ => exact rhs_row _ _
      | ⟨1, _⟩ => exact (dot_S2048x98_S1024x98_S2048x1024_1_1_0_0_n_n.rhsIdx_val_of_single rfl _ _).trans hk)
  rw [el, er]

/-- THE BODY'S RESULT AT AN ENTRY: from a block `x` of tubelets, the weights `w`, the bias `b` and a block `p` of
    positional terms, entry `(a, r, e)` is tubelet `(a, r)` against row `e` of the weights, plus `b[e]`, plus `p[0, r, e]`. -/
theorem pay_apply (x : Vec Ideal S16x128x98 .f32) (w : Vec Ideal S1024x98 .f32) (b : Vec Ideal S1024 .f32) (p : Vec Ideal S1x128x1024 .f32)
    (a : Fin 16) (r : Fin 128) (e : Fin 1024) :
    k0_pay1 (F := Ideal) x w b p (ix3 a r e)
      = (∑ k : Fin 98, x (ix3 a r k) * w (ix2 e k)) + b (ix1 e) + p (ix3 (0 : Fin 1) r e) := by
  unfold k0_pay1
  show shapeCast S16x128x1024 (matmul dot_S2048x98_S1024x98_S2048x1024_1_1_0_0_n_n none
          (shapeCast S2048x98 (truncf .bf16 (shapeCast S16x128x98 x _) _) _) (truncf .bf16 w _)
          (constant (F := Ideal) S2048x1024 .f32 0x00000000#32)) _ (ix3 a r e)
        + broadcastTo S16x128x1024 (shapeCast S1x1x1024 b _) _ (ix3 a r e)
        + broadcastTo S16x128x1024 p _ (ix3 a r e) = _
  rw [unflatten_apply, product_apply, biasBroadcast_apply, biasCast_apply, posBroadcast_apply]
  refine congrArg (fun z => z + b (ix1 e) + p (ix3 (0 : Fin 1) r e)) (Finset.sum_congr rfl fun k _ => ?_)
  rw [flatten_apply, shapeCast_self]
  rfl

end Cert.KernelIdeal.BlockValue

end
-- ==== Proof.KernelValue.lean ====
/-
  From what each grid point writes to the whole array of tokens.

  The grid has 9 × 4 points; point `(j, i)` works on samples `16i … 16i + 15` and tubelets `128j … 128j + 127`. It is
  handed the block of tubelets at block index `(i, j, 0)`, the whole weight matrix, the whole bias, the block of
  positional terms at `(0, j, 0)`, and writes the block of the result at `(i, j, 0)`. An element `(a, r, ·)` of a block
  at block index `(i, j, 0)` sits in its array at `(16i + a, 128j + r, ·)`, so what the body computes at `(a, r, e)` from
  its blocks (`pay_apply`) is the token `(16i + a, 128j + r, e)` of the arrays the region finds: every point writes its
  block of ONE array, `tokens`. The 36 blocks tile the result (sample `s`, tubelet `n` lie in the block at
  `(s / 16, n / 128, 0)`), so the result array ends at `tokens`. The tubelet array the region finds is what the six
  re-laying operations before the region make of the video; it is named, not opened.
-/
import proofs.«181211_j87771951661498_2_alg».proof.Proof.Gen.KernelIdeal.Value
import proofs.«181211_j87771951661498_2_alg».proof.Proof.Payload
import proofs.«181211_j87771951661498_2_alg».proof.Proof.Spec
import Idealize.ShloMosaic.Lib.Pipeline.Value
import Idealize.ShloMosaic.Lib.StableHlo.Run

noncomputable section

namespace Cert.KernelIdeal.ArrayValue

open Cert.KernelIdeal Cert.KernelIdeal.Gen Cert.KernelIdeal.BlockValue Cert.TubeletEmbed
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## Where each window's block sits at a grid point -/

/-- The printed index maps, decided over the 36 points: the tubelet block moves with the result block on the first two
    axes; the positional block with it on the tubelet axis only; the weights and the bias do not move; no block moves on
    a last axis; the result's block indices stay below 4 and 9. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = 0 ∧ win0_3.index t (1 : Fin 3) = win0_4.index t (1 : Fin 3) ∧ win0_3.index t (2 : Fin 3) = 0
    ∧ win0_4.index t (2 : Fin 3) = 0
    ∧ win0_4.index t (0 : Fin 3) ≤ 3 ∧ win0_4.index t (1 : Fin 3) ≤ 8 :=
  (by decide +kernel : ∀ t : Fin grid0.N, _)

/-- Every block of the result is some point's. -/
theorem idx_onto : ∀ (q0 : Fin 4) (q1 : Fin 9), ∃ t : Fin cfg0.N, win0_4.index t = ![q0.val, q1.val, 0] :=
  (by decide +kernel : ∀ (q0 : Fin 4) (q1 : Fin 9), ∃ t : Fin grid0.N, win0_4.index t = ![q0.val, q1.val, 0])

/-! ## The tubelet array the region finds -/

/-- The video re-laid into tubelets: the six reshapes and transposes of the program before its one region. -/
def tubelets (x : (⟨S64x16x1x84x84, .f32⟩ : BufTy).Contents (Elt Ideal)) : (⟨S64x1152x98, .f32⟩ : BufTy).Contents (Elt Ideal) :=
  shapeCast _ (transpose S64x8x144x2x49 [0, 1, 3, 2, 4] (shapeCast _ (shapeCast _ (transpose S1024x12x12x1x7x7 [0, 2, 4, 1, 3, 5]
    (shapeCast _ x shapeCasts_S64x16x1x84x84_S1024x1x12x7x12x7) transposes_S1024x1x12x7x12x7_S1024x12x12x1x7x7_0_2_4_1_3_5)
    shapeCasts_S1024x12x12x1x7x7_S64x16x144x49) shapeCasts_S64x16x144x49_S64x8x2x144x49) transposes_S64x8x2x144x49_S64x8x144x2x49_0_1_3_2_4)
    shapeCasts_S64x8x144x2x49_S64x1152x98

/-- When the region is entered, the tubelet buffer holds the launch video re-laid. -/
theorem V_main_v5 (c : Dev nD) : (V m c main_v5 : S64x1152x98.Idx → Elt Ideal .f32) = tubelets (m ((c : Thread nD τ).loc main_arg0)) := by
  unfold tubelets
  dsimp only [Gen.V, Gen.hostOps0]
  after_results
  rfl

/-! ## The blocks, read where they sit -/

/-- The tubelet block at point `t`: its element `(a, r, k)` is tubelet `(s, n)`'s `k`-th number, where `(s, n)` is the place
    of `(a, r)` in the result block of the same point. -/
theorem tub_blk (c : Dev nD) (t : Fin cfg0.N) (a : Fin 16) (r : Fin 128) (k : Fin 98) (s : Fin 64) (n : Fin 1152)
    (hs : s.val = win0_4.index t (0 : Fin 3) * 16 + a.val) (hn : n.val = win0_4.index t (1 : Fin 3) * 128 + r.val) :
    (iblk m c 0 t : Vec Ideal S16x128x98 .f32) (ix3 a r k) = (V m c main_v5 : S64x1152x98.Idx → Elt Ideal .f32) (ix3 s n k) := by
  obtain ⟨e0, e1, e2, -⟩ := idx_facts t
  unfold iblk
  rw [View.read_apply]
  show V m c main_v5 _ = V m c main_v5 _
  refine congrArg (V m c main_v5) (funext fun d => Fin.ext ?_)
  match d with
  | ⟨0, _⟩ => show win0_0.index t (0 : Fin 3) * 16 + 1 * a.val = s.val; omega
  | ⟨1, _⟩ => show win0_0.index t (1 : Fin 3) * 128 + 1 * r.val = n.val; omega
  | ⟨2, _⟩ => show win0_0.index t (2 : Fin 3) * 98 + 1 * k.val = k.val; omega

/-- The weights' block at every point is the whole matrix. -/
theorem w_blk (c : Dev nD) (t : Fin cfg0.N) (e : Fin 1024) (k : Fin 98) :
    (iblk m c 1 t : Vec Ideal S1024x98 .f32) (ix2 e k) = (V m c main_arg1 : S1024x98.Idx → Elt Ideal .f32) (ix2 e k) := by
  obtain ⟨-, -, -, e3, e4, -⟩ := idx_facts t
  unfold iblk
  rw [View.read_apply]
  show V m c main_arg1 _ = V m c main_arg1 _
  refine congrArg (V m c main_arg1) (funext fun d => Fin.ext ?_)
  match d with
  | ⟨0, _⟩ => show win0_1.index t (0 : Fin 2) * 1024 + 1 * e.val = e.val; omega
  | ⟨1, _⟩ => show win0_1.index t (1 : Fin 2) * 98 + 1 * k.val = k.val; omega

/-- The bias's block at every point is the whole vector. -/
theorem b_blk (c : Dev nD) (t : Fin cfg0.N) (e : Fin 1024) :
    (iblk m c 2 t : Vec Ideal S1024 .f32) (ix1 e) = (V m c main_arg2 : S1024.Idx → Elt Ideal .f32) (ix1 e) := by
  obtain ⟨-, -, -, -, -, e5, -⟩ := idx_facts t
  unfold iblk
  rw [View.read_apply]
  show V m c main_arg2 _ = V m c main_arg2 _
  refine congrArg (V m c main_arg2) (funext fun d => Fin.ext ?_)
  match d with
  | ⟨0, _⟩ => show win0_2.index t (0 : Fin 1) * 1024 + 1 * e.val = e.val; omega

/-- The positional block at point `t`: its element `(0, r, e)` is the positional term of tubelet `n`, the place of `r` in
    the result block of the same point. -/
theorem pos_blk (c : Dev nD) (t : Fin cfg0.N) (r : Fin 128) (e : Fin 1024) (n : Fin 1152)
    (hn : n.val = win0_4.index t (1 : Fin 3) * 128 + r.val) :
    (iblk m c 3 t : Vec Ideal S1x128x1024 .f32) (ix3 (0 : Fin 1) r e) = (V m c main_arg3 : S1x1152x1024.Idx → Elt Ideal .f32) (ix3 (0 : Fin 1) n e) := by
  obtain ⟨-, -, -, -, -, -, e6, e7, e8, -⟩ := idx_facts t
  unfold iblk
  rw [View.read_apply]
  show V m c main_arg3 _ = V m c main_arg3 _
  refine congrArg (V m c main_arg3) (funext fun d => Fin.ext ?_)
  match d with
  | ⟨0, _⟩ => show win0_3.index t (0 : Fin 3) * 1 + 1 * 0 = 0; omega
  | ⟨1, _⟩ => show win0_3.index t (1 : Fin 3) * 128 + 1 * r.val = n.val; omega
  | ⟨2, _⟩ => show win0_3.index t (2 : Fin 3) * 1024 + 1 * e.val = e.val; omega

/-- The place in the result array of element `(a, r, e)` of the result block at point `t`. -/
theorem out_emb (t : Fin cfg0.N) (a : Fin 16) (r : Fin 128) (e : Fin 1024) :
    ∃ (s : Fin 64) (n : Fin 1152), (((cfg0.win 4).blk t).view.emb (ix3 a r e) : S64x1152x1024.Idx) = ix3 s n e
      ∧ s.val = win0_4.index t (0 : Fin 3) * 16 + a.val ∧ n.val = win0_4.index t (1 : Fin 3) * 128 + r.val := by
  obtain ⟨-, -, -, -, -, -, -, -, -, e9, b0, b1⟩ := idx_facts t
  refine ⟨⟨win0_4.index t (0 : Fin 3) * 16 + a.val, by have := a.isLt; omega⟩,
    ⟨win0_4.index t (1 : Fin 3) * 128 + r.val, by have := r.isLt; omega⟩, ?_, rfl, rfl⟩
  funext d
  apply Fin.ext
  match d with
  | ⟨0, _⟩ => show win0_4.index t (0 : Fin 3) * 16 + 1 * a.val = win0_4.index t (0 : Fin 3) * 16 + a.val; omega
  | ⟨1, _⟩ => show win0_4.index t (1 : Fin 3) * 128 + 1 * r.val = win0_4.index t (1 : Fin 3) * 128 + r.val; omega
  | ⟨2, _⟩ => show win0_4.index t (2 : Fin 3) * 1024 + 1 * e.val = e.val; omega

/-! ## What a point writes back, the cover, the final array -/

/-- WHAT POINT `t` WRITES BACK is block `t` of the tokens of the arrays the region finds. -/
theorem flushed_eq (c : Dev nD) (t : Fin cfg0.N) :
    (dats m 0 c).flushed 4 t = ((cfg0.win 4).blk t).view.read (Elt Ideal)
      (tokens (V m c main_v5) (V m c main_arg1) (V m c main_arg2) (V m c main_arg3)) := by
  rw [Cert.KernelIdeal.Value.flushed4]
  unfold out0_4
  rw [View.canon_unit_zero hz3]
  simp only [View.ld_unit_zero (S := S16x128x98) hz3, View.ld_unit_zero (S := S1024x98) hz2, View.ld_unit_zero (S := S1024) hz1,
    View.ld_unit_zero (S := S1x128x1024) hz3]
  funext j
  obtain ⟨a, r, e, rfl⟩ : ∃ (a : Fin 16) (r : Fin 128) (e : Fin 1024), j = ix3 a r e := ⟨j 0, j 1, j 2, eq_ix3 j⟩
  obtain ⟨s, n, hi, hs, hn⟩ := out_emb t a r e
  show k0_pay1 (F := Ideal) (iblk m c 0 t) (iblk m c 1 t) (iblk m c 2 t) (iblk m c 3 t) (ix3 a r e)
    = tokens (V m c main_v5) (V m c main_arg1) (V m c main_arg2) (V m c main_arg3) (((cfg0.win 4).blk t).view.emb (ix3 a r e))
  rw [hi, tokens_apply]
  refine (pay_apply (iblk m c 0 t) (iblk m c 1 t) (iblk m c 2 t) (iblk m c 3 t) a r e).trans ?_
  unfold tokenAt
  rw [b_blk m c t e, pos_blk m c t r e n hn]
  refine congrArg (fun z => z + (V m c main_arg2 : S1024.Idx → Elt Ideal .f32) (ix1 e)
    + (V m c main_arg3 : S1x1152x1024.Idx → Elt Ideal .f32) (ix3 (0 : Fin 1) n e)) (Finset.sum_congr rfl fun k _ => ?_)
  rw [tub_blk m c t a r k s n hs hn, w_blk m c t e k]

/-- An index of the result array is in point `t`'s block iff each coordinate is in the block's range on its axis. -/
theorem mem_blk (t : Fin cfg0.N) (i : S64x1152x1024.Idx) :
    i ∈ ((cfg0.win 4).blk t).view.set ↔ ∀ a : Fin 3, win0_4.index t a * S16x128x1024.size a ≤ (i a).val
      ∧ (i a).val < win0_4.index t a * S16x128x1024.size a + S16x128x1024.size a := by
  show i ∈ ((View.whole main_v6).slice (win0_4.rect t)).set ↔ _
  rw [View.set_slice_whole, Rect.mem_set_unit]
  exact Iff.rfl

/-- The blocks tile the result: sample `s`, tubelet `n` lie in the block at `(s / 16, n / 128, 0)`, which some point writes. -/
theorem cover (i : S64x1152x1024.Idx) :
    ∃ t : Fin cfg0.N, (cfg0.win 4).flush t = true ∧ i ∈ ((cfg0.win 4).blk t).view.set := by
  have hi0 : (i 0).val < 64 := (i 0).isLt
  have hi1 : (i 1).val < 1152 := (i 1).isLt
  have hi2 : (i 2).val < 1024 := (i 2).isLt
  obtain ⟨t, ht⟩ := idx_onto ⟨(i 0).val / 16, by omega⟩ ⟨(i 1).val / 128, by omega⟩
  have q0 : win0_4.index t (0 : Fin 3) = (i 0).val / 16 := congrFun ht 0
  have q1 : win0_4.index t (1 : Fin 3) = (i 1).val / 128 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 16 ≤ (i 0).val ∧ (i 0).val < win0_4.index t (0 : Fin 3) * 16 + 16; omega
  | ⟨1, _⟩ => show win0_4.index t (1 : Fin 3) * 128 ≤ (i 1).val ∧ (i 1).val < win0_4.index t (1 : Fin 3) * 128 + 128; omega
  | ⟨2, _⟩ => show win0_4.index t (2 : Fin 3) * 1024 ≤ (i 2).val ∧ (i 2).val < win0_4.index t (2 : Fin 3) * 1024 + 1024; omega

/-- THE RESULT ARRAY after the run: the tokens of the arrays the region finds. -/
theorem final (c : Dev nD) : (dats m 0 c).arrAt 4 cfg0.N
    = tokens (V m c main_v5) (V m c main_arg1) (V m c main_arg2) (V m c main_arg3) :=
  (dats m 0 c).arrAt_eq_of_cover 4 _ (fun t _ => flushed_eq m c t) cover

/-- The same, of the launch arrays: the video re-laid into tubelets, the weights, the bias, the positional array. -/
theorem final_launch (c : Dev nD) : (dats m 0 c).arrAt 4 cfg0.N
    = tokens (tubelets (m ((c : Thread nD τ).loc main_arg0))) (m ((c : Thread nD τ).loc main_arg1))
        (m ((c : Thread nD τ).loc main_arg2)) (m ((c : Thread nD τ).loc main_arg3)) := by
  rw [final, V_main_v5, V_main_arg1, V_main_arg2, V_main_arg3]

/-! ## The run, read -/

/-- Every weakly fair execution of the program terminates with the result array at the tokens of the launch arrays and
    the arguments unchanged. -/
theorem run : θ_run defs (onTc (τ := τ) (main (F := Ideal))) ⟨m, fun _ => 0, ρ⟩ fun r => ∀ c : Dev nD,
      r.2.mem ((c : Thread nD τ).loc main_v6)
        = tokens (tubelets (m ((c : Thread nD τ).loc main_arg0))) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_launch m c), (h c).2⟩)
    (Cert.KernelIdeal.Value.run_blocks m ρ)

end Cert.KernelIdeal.ArrayValue

end
-- ==== Proof.lean ====
/-
  A tubelet embedding computed block by block equals the same embedding computed at once.

  Both programs first re-lay a video clip `[64, 16, 1, 84, 84]` into 1152 tubelets per sample of 98 numbers each (the
  same six reshapes and transposes, in the same order), and then compute

      token[s, n, e] = (∑ k < 98, tubelet[s, n, k] · W[e, k]) + bias[e] + pos[0, n, e].

  The reference does it with one contraction over the whole arrays and two broadcast additions. The kernel does it on a
  9 × 4 grid: each point takes 16 samples × 128 tubelets, flattens them to 2048 rows, multiplies with the whole of `W`
  into a zero accumulator (the roundings to bf16 on the way in are the identity at the ideal values), folds the rows
  back, and adds the bias and its block of the positional array. Nothing distinguishes the two over the extended reals:
  the sums have the same terms in the same order and the two additions are grouped alike, so no law of arithmetic is
  needed and the finiteness of the inputs is never used.

  The parts: `Proof/Spec.lean` states `tokens`; `Proof/RefValue.lean` reads the reference's stages at an index and finds
  `tokens` of its tubelet array; `Proof/Payload.lean` reads the kernel body's result at an entry of a block;
  `Proof/KernelValue.lean` places the blocks in their arrays, shows that every point writes its block of `tokens`, that
  the blocks tile the result, and restates the kernel's run. Here the two runs are set side by side. The idealization
  rewrote nothing in the kernel, so the kernel and its idealization are the same text and `preserves` has nothing to say.
-/
import proofs.«181211_j87771951661498_2_alg».proof.Defs
import proofs.«181211_j87771951661498_2_alg».proof.Proof.Gen.Kernel
import proofs.«181211_j87771951661498_2_alg».proof.Proof.Gen.Kernel.Skeleton
import proofs.«181211_j87771951661498_2_alg».proof.Proof.Gen.Kernel.Launch
import proofs.«181211_j87771951661498_2_alg».proof.Proof.Gen.Kernel.Points
import proofs.«181211_j87771951661498_2_alg».proof.Proof.Gen.Kernel.Frame
import proofs.«181211_j87771951661498_2_alg».proof.Proof.Gen.KernelIdeal
import proofs.«181211_j87771951661498_2_alg».proof.Proof.Gen.KernelIdeal.Skeleton
import proofs.«181211_j87771951661498_2_alg».proof.Proof.Gen.KernelIdeal.Launch
import proofs.«181211_j87771951661498_2_alg».proof.Proof.Gen.KernelIdeal.Points
import proofs.«181211_j87771951661498_2_alg».proof.Proof.Gen.KernelIdeal.Frame
import proofs.«181211_j87771951661498_2_alg».proof.Proof.Gen.ReferenceIdeal
import proofs.«181211_j87771951661498_2_alg».proof.Proof.Gen.Pre_finite_inputs
import proofs.«181211_j87771951661498_2_alg».proof.Proof.Gen.KernelIdeal.Value
import proofs.«181211_j87771951661498_2_alg».proof.Proof.Gen.ReferenceIdeal.Run
import proofs.«181211_j87771951661498_2_alg».proof.Proof.Gen.ReferenceIdeal.Read
import proofs.«181211_j87771951661498_2_alg».proof.Proof.Spec
import proofs.«181211_j87771951661498_2_alg».proof.Proof.RefValue
import proofs.«181211_j87771951661498_2_alg».proof.Proof.KernelValue
import Idealize.ShloMosaic.Adequacy
import Idealize.ShloMosaic.Init

noncomputable section

namespace Cert.Proof

open Idealize.ShloMosaic Idealize.ShloMosaic.TcCoe Idealize.SL.Sem

/-- The kernel's program at the word level runs to the end and leaves its arguments alone. -/
theorem frame_kernel : Cert.frame_Kernel := fun m ρ _ => Cert.Kernel.Gen.frame m ρ

/-- So does it read at the ideal values. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- The two programs re-lay the video into tubelets by the same six operations. -/
theorem tubelets_eq (x : (⟨Cert.KernelIdeal.S64x16x1x84x84, .f32⟩ : BufTy).Contents (Elt Ideal)) :
    Cert.KernelIdeal.ArrayValue.tubelets x = Cert.ReferenceIdeal.Read.val_main_v5 (F := Ideal) x := rfl

/-- From launch arrays that agree, the kernel's result array ends at `tokens` of the video re-laid, the weights, the bias
    and the positional array, and so does the reference's. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, tubelets_eq]
  exact (Cert.ReferenceIdeal.Read.val_main_v11_eq _ _ _ _).trans (Cert.ReferenceIdeal.RefValue.result_eq _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
